-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x32x128 : Shape := ⟨4, ![4, 4096, 32, 128]⟩
abbrev S4x16x32x128 : Shape := ⟨4, ![4, 16, 32, 128]⟩
abbrev S_ : Shape := ⟨0, ![]⟩

class Facts : Prop where
  bcast_S_S4x4096x32x128 : S_.BroadcastsInDim S4x4096x32x128 (![] : Fin 0 → Fin S4x4096x32x128.rank)
  reducesTo_S4x4096x32x128_S_d0_1_2_3 : S4x4096x32x128.ReducesTo [0, 1, 2, 3] S_
  h_S_ : 0 < S_.numel
  bcast_S_S4x16x32x128 : S_.BroadcastsInDim S4x16x32x128 (![] : Fin 0 → Fin S4x16x32x128.rank)
  reducesTo_S4x16x32x128_S_d0_1_2_3 : S4x16x32x128.ReducesTo [0, 1, 2, 3] S_

variable [Facts]

def fn_part1 {F : FTy → Type} [FloatOps F] (main_v13 : IVec S_ 1) (main_v16 : IVec S4x16x32x128 1) : IVec S_ 1 :=
  let main_c_5 : IVec S_ 1 := constantI S_ 1 1#1
  let main_v17 : IVec S_ 1 := (fun x v => Host.reduce IntOp.andi x v reducesTo_S4x16x32x128_S_d0_1_2_3 h_S_) main_v16 main_c_5
  let main_v18 : IVec S_ 1 := andi main_v13 main_v17
  main_v18

def fn {F : FTy → Type} [FloatOps F] (main_arg0 : FVec F S4x4096x32x128 .f32) (main_arg1 : FVec F S4x4096x32x128 .f32) (main_arg2 : FVec F S4x16x32x128 .f32) (main_arg3 : FVec F S4x16x32x128 .f32) : IVec S_ 1 :=
  let main_v0 : FVec F S4x4096x32x128 .f32 := Host.absf main_arg0
  let main_cst : FVec F S_ .f32 := constant S_ .f32 0x7F800000#32
  let main_v1 : FVec F S4x4096x32x128 .f32 := broadcastInDim S4x4096x32x128 ![] bcast_S_S4x4096x32x128 main_cst
  let main_v2 : IVec S4x4096x32x128 1 := cmpf .olt main_v0 main_v1
  let main_c : IVec S_ 1 := constantI S_ 1 1#1
  let main_v3 : IVec S_ 1 := (fun x v => Host.reduce IntOp.andi x v reducesTo_S4x4096x32x128_S_d0_1_2_3 h_S_) main_v2 main_c
  let main_v4 : FVec F S4x4096x32x128 .f32 := Host.absf main_arg1
  let main_cst_0 : FVec F S_ .f32 := constant S_ .f32 0x7F800000#32
  let main_v5 : FVec F S4x4096x32x128 .f32 := broadcastInDim S4x4096x32x128 ![] bcast_S_S4x4096x32x128 main_cst_0
  let main_v6 : IVec S4x4096x32x128 1 := cmpf .olt main_v4 main_v5
  let main_c_1 : IVec S_ 1 := constantI S_ 1 1#1
  let main_v7 : IVec S_ 1 := (fun x v => Host.reduce IntOp.andi x v reducesTo_S4x4096x32x128_S_d0_1_2_3 h_S_) main_v6 main_c_1
  let main_v8 : IVec S_ 1 := andi main_v3 main_v7
  let main_v9 : FVec F S4x16x32x128 .f32 := Host.absf main_arg2
  let main_cst_2 : FVec F S_ .f32 := constant S_ .f32 0x7F800000#32
  let main_v10 : FVec F S4x16x32x128 .f32 := broadcastInDim S4x16x32x128 ![] bcast_S_S4x16x32x128 main_cst_2
  let main_v11 : IVec S4x16x32x128 1 := cmpf .olt main_v9 main_v10
  let main_c_3 : IVec S_ 1 := constantI S_ 1 1#1
  let main_v12 : IVec S_ 1 := (fun x v => Host.reduce IntOp.andi x v reducesTo_S4x16x32x128_S_d0_1_2_3 h_S_) main_v11 main_c_3
  let main_v13 : IVec S_ 1 := andi main_v8 main_v12
  let main_v14 : FVec F S4x16x32x128 .f32 := Host.absf main_arg3
  let main_cst_4 : FVec F S_ .f32 := constant S_ .f32 0x7F800000#32
  let main_v15 : FVec F S4x16x32x128 .f32 := broadcastInDim S4x16x32x128 ![] bcast_S_S4x16x32x128 main_cst_4
  let main_v16 : IVec S4x16x32x128 1 := cmpf .olt main_v14 main_v15
  fn_part1 (F := F) main_v13 main_v16
-- ==== Kernel.lean ====
abbrev S4x4096x32x128 : Shape := ⟨4, ![4, 4096, 32, 128]⟩
abbrev S4x16x32x128 : Shape := ⟨4, ![4, 16, 32, 128]⟩
abbrev S4x4112x32x128 : Shape := ⟨4, ![4, 4112, 32, 128]⟩
abbrev S1x256x32x128 : Shape := ⟨4, ![1, 256, 32, 128]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x32x128, .f32⟩
  | .hbm, ⟨1, _⟩ => ⟨S4x4096x32x128, .f32⟩
  | .hbm, ⟨2, _⟩ => ⟨S4x16x32x128, .f32⟩
  | .hbm, ⟨3, _⟩ => ⟨S4x16x32x128, .f32⟩
  | .hbm, ⟨4, _⟩ => ⟨S4x4112x32x128, .f32⟩
  | .hbm, ⟨5, _⟩ => ⟨S4x4112x32x128, .f32⟩
  | .hbm, ⟨6, _⟩ => ⟨S4x4112x32x128, .f32⟩
  | .hbm, ⟨7, _⟩ => ⟨S4x4112x32x128, .f32⟩
  | .local _ .vmem, ⟨0, _⟩ => ⟨S1x256x32x128, .f32⟩
  | .local _ .vmem, ⟨1, _⟩ => ⟨S1x256x32x128, .f32⟩
  | .local _ .vmem, ⟨2, _⟩ => ⟨S1x256x32x128, .f32⟩
  | .local _ .vmem, ⟨3, _⟩ => ⟨S1x256x32x128, .f32⟩
  | .local _ .vmem, ⟨4, _⟩ => ⟨S1x256x32x128, .f32⟩
  | .local _ .vmem, ⟨5, _⟩ => ⟨S1x256x32x128, .f32⟩
  | .local _ .vmem, ⟨6, _⟩ => ⟨S1x256x32x128, .f32⟩
  | .local _ .vmem, ⟨7, _⟩ => ⟨S1x256x32x128, .f32⟩
  | .local _ .vmem, ⟨8, _⟩ => ⟨S4x16x32x128, .f32⟩
  | .local _ .vmem, ⟨9, _⟩ => ⟨S4x16x32x128, .f32⟩
  | .local _ .vmem, ⟨10, _⟩ => ⟨S4x16x32x128, .f32⟩
  | .local _ .vmem, ⟨11, _⟩ => ⟨S4x16x32x128, .f32⟩
  | _, _ => ⟨S4x4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0_0 : Ref sig .tc := ⟨.hbm, 4, rfl⟩
abbrev main_call0_v0_1 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let c0_i32 : BitVec 32 := 0#32
  let c256_i32 : BitVec 32 := 256#32
  let c0_i32_0 : BitVec 32 := 0#32
  let c0_i32_1 : BitVec 32 := 0#32
  let c0_i32_2 : BitVec 32 := 0#32
  ![c0_i32.toNat, c256_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c256_i32 : BitVec 32 := 256#32
  let c0_i32_0 : BitVec 32 := 0#32
  let c0_i32_1 : BitVec 32 := 0#32
  let c0_i32_2 : BitVec 32 := 0#32
  ![c0_i32.toNat, c256_i32.toNat, c0_i32_0.toNat, c0_i32_1.toNat]

abbrev stage1_0 : Fin 1 → Memref sig .tc .vmem S4x16x32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x16x32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x16x32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x16x32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x256x32x128_S1x256x32x128_0_0_0_0 : ∀ a, (![0, 0, 0, 0] : Fin 4 → Nat) a + S1x256x32x128.size a ≤ S1x256x32x128.size a
  h_S1x256x32x128 : 0 < S1x256x32x128.numel
  inb_S4x16x32x128_S4x16x32x128_0_0_0_0 : ∀ a, (![0, 0, 0, 0] : Fin 4 → Nat) a + S4x16x32x128.size a ≤ S4x16x32x128.size a
  h_S4x16x32x128 : 0 < S4x16x32x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x128.size a ≤ S4x4096x32x128.size a
  hwx0_0 : ∀ i : grid0.Coords, EltTy.bits .f32 = 32 ∨ (Rect.block (s := S4x4096x32x128) S1x256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x32x128.size a ≤ S4x4096x32x128.size a
  hwx0_1 : ∀ i : grid0.Coords, EltTy.bits .f32 = 32 ∨ (Rect.block (s := S4x4096x32x128) S1x256x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x256x32x128.size a < S4x4112x32x128.size a
  hwx0_2 : ∀ i : grid0.Coords, EltTy.bits .f32 = 32 ∨ (Rect.unit (s := S4x4112x32x128) (fun a => cc0_transform_2 i a * S1x256x32x128.size a) (fun a => (Pipeline.Clip.of (cc0_transform_2 i a) (S1x256x32x128.size a) (S4x4112x32x128.size a)).extent (S1x256x32x128.size a)) fun a => Pipeline.Clip.inb (Pipeline.Clip.ok_of (hstart0_2 i a))).WholeWords (EltTy.packing .f32)
  hwxs0_2 : ∀ i : grid0.Coords, EltTy.bits .f32 = 32 ∨ (Rect.unit (s := S1x256x32x128) (fun _ => 0) (fun a => (Pipeline.Clip.of (cc0_transform_2 i a) (S1x256x32x128.size a) (S4x4112x32x128.size a)).extent (S1x256x32x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x256x32x128.size a < S4x4112x32x128.size a
  hwx0_3 : ∀ i : grid0.Coords, EltTy.bits .f32 = 32 ∨ (Rect.unit (s := S4x4112x32x128) (fun a => cc0_transform_3 i a * S1x256x32x128.size a) (fun a => (Pipeline.Clip.of (cc0_transform_3 i a) (S1x256x32x128.size a) (S4x4112x32x128.size a)).extent (S1x256x32x128.size a)) fun a => Pipeline.Clip.inb (Pipeline.Clip.ok_of (hstart0_3 i a))).WholeWords (EltTy.packing .f32)
  hwxs0_3 : ∀ i : grid0.Coords, EltTy.bits .f32 = 32 ∨ (Rect.unit (s := S1x256x32x128) (fun _ => 0) (fun a => (Pipeline.Clip.of (cc0_transform_3 i a) (S1x256x32x128.size a) (S4x4112x32x128.size a)).extent (S1x256x32x128.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x16x32x128.size a ≤ S4x16x32x128.size a
  hwx1_0 : ∀ i : grid1.Coords, EltTy.bits .f32 = 32 ∨ (Rect.block (s := S4x16x32x128) S4x16x32x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x16x32x128.size a ≤ S4x16x32x128.size a
  hwx1_1 : ∀ i : grid1.Coords, EltTy.bits .f32 = 32 ∨ (Rect.block (s := S4x16x32x128) S4x16x32x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_4 i = cc1_transform_4 i'
  hinb1_2 : ∀ (i : grid1.Coords) a, (cc1_transform_4 i a + 1) * S4x16x32x128.size a ≤ S4x4112x32x128.size a
  hwx1_2 : ∀ i : grid1.Coords, EltTy.bits .f32 = 32 ∨ (Rect.block (s := S4x4112x32x128) S4x16x32x128.size (cc1_transform_4 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_5 i = cc1_transform_5 i'
  hinb1_3 : ∀ (i : grid1.Coords) a, (cc1_transform_5 i a + 1) * S4x16x32x128.size a ≤ S4x4112x32x128.size a
  hwx1_3 : ∀ i : grid1.Coords, EltTy.bits .f32 = 32 ∨ (Rect.block (s := S4x4112x32x128) S4x16x32x128.size (cc1_transform_5 i) (hinb1_3 i)).WholeWords (EltTy.packing .f32)

variable [Facts₀]

abbrev win0_0 : Pipeline.Window sig grid0 :=
  Pipeline.Window.ofSpec (Memref.whole main_arg0) S1x256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_call0_v0_0) S1x256x32x128.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_call0_v0_1) S1x256x32x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4x16x32x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4x16x32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S4x16x32x128.size cc1_transform_4 reads1_2 true false 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S4x16x32x128.size cc1_transform_5 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x32x128 : Shape := ⟨4, ![4, 4096, 32, 128]⟩
abbrev S4x16x32x128 : Shape := ⟨4, ![4, 16, 32, 128]⟩
abbrev S4x4112x32x128 : Shape := ⟨4, ![4, 4112, 32, 128]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x32x128, .f32⟩
  | .hbm, ⟨1, _⟩ => ⟨S4x4096x32x128, .f32⟩
  | .hbm, ⟨2, _⟩ => ⟨S4x16x32x128, .f32⟩
  | .hbm, ⟨3, _⟩ => ⟨S4x16x32x128, .f32⟩
  | .hbm, ⟨4, _⟩ => ⟨S4x4112x32x128, .f32⟩
  | .hbm, ⟨5, _⟩ => ⟨S4x4112x32x128, .f32⟩
  | _, _ => ⟨S4x4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S4x4096x32x128_S4x16x32x128_S4x4112x32x128_d1 : Shape.Concatenates [S4x4096x32x128, S4x16x32x128] S4x4112x32x128 1

variable [Facts₀]

class Facts : Prop extends Facts₀ where

variable [Facts]
-- ==== Proof.KernelRun.lean ====
/-
  The idealized kernel's run with its two result arrays named.

  @main is two kernel regions with one stretch of host copies between them.  The contents of the TensorCore's
  buffers at each boundary form a chain: at launch the memory itself; after the first region its two output arrays
  hold what that region's write-backs leave and every other buffer is untouched; after the host copies the two result
  buffers hold copies of those arrays; after the second region the two result buffers hold what its write-backs
  leave.  Every weakly fair execution terminates without a fault, and in the final state every unscoped buffer holds
  the last link of that chain.  Stated here for the two result buffers and the four argument buffers (the arguments
  are read back to the launch memory, since no region and no host copy writes one).
-/
import proofs.«131961_j26972394619628_2_alg».proof.Proof.Gen.KernelIdeal.Frame

set_option maxRecDepth 16384

noncomputable section

namespace Cert.KernelIdeal.Concat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the contents the
    chain of boundaries ends with and the argument buffers as launched. -/
theorem run_results : θ_run defs (onTc (τ := τ) (main (F := F))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_v0_1) = W3 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Concat

end
-- ==== Proof.Joined.lean ====
/-
  The joined array: the rows already held followed by the new rows.

  Along axis 1 (the sequence axis) an array of 4096 rows per batch entry is followed by one of 16 rows, giving 4112
  rows; the other three axes (batch 4, heads 32, width 128) are shared.  An entry of the joined array whose row is
  below 4096 is the entry of the first array at the same coordinates; an entry whose row is 4096 or more is the
  entry of the second array at the same coordinates but for the row, which is 4096 less.
-/
import Idealize.ShloMosaic.Lib.Pipeline.Value

noncomputable section

namespace Cert.Joined

open Idealize.ShloMosaic

/-- The rows already held: 4 × 4096 × 32 × 128. -/
abbrev Held : Shape := ⟨4, ![4, 4096, 32, 128]⟩
/-- The new rows: 4 × 16 × 32 × 128. -/
abbrev Fresh : Shape := ⟨4, ![4, 16, 32, 128]⟩
/-- Both: 4 × 4112 × 32 × 128. -/
abbrev Whole : Shape := ⟨4, ![4, 4112, 32, 128]⟩

theorem joins : Shape.Concatenates [Held, Fresh] Whole 1 := by decide

variable {α : Type}

/-- The held rows followed by the new rows along the sequence axis. -/
def joined (a : Held.Idx → α) (b : Fresh.Idx → α) : Whole.Idx → α :=
  concatenate Whole 1 [⟨Held, a⟩, ⟨Fresh, b⟩] joins

/-- Below row 4096 the joined array is the held array at the same coordinates. -/
theorem joined_held (a : Held.Idx → α) (b : Fresh.Idx → α) (j : Whole.Idx) (i : Held.Idx)
    (hi : ∀ x : Fin 4, (i x).val = (j x).val) : joined a b j = a i :=
  concatenate_pair_apply_left (t := Whole) (s₁ := Held) (s₂ := Fresh) 1 a b joins j rfl i hi

/-- From row 4096 on the joined array is the new array, the row 4096 less. -/
theorem joined_fresh (a : Held.Idx → α) (b : Fresh.Idx → α) (j : Whole.Idx) (i : Fresh.Idx)
    (h0 : (i 0).val = (j 0).val) (h1 : (i 1).val + 4096 = (j 1).val) (h2 : (i 2).val = (j 2).val)
    (h3 : (i 3).val = (j 3).val) : joined a b j = b i :=
  concatenate_pair_apply_right (t := Whole) (s₁ := Held) (s₂ := Fresh) 1 a b joins j rfl rfl i
    (fun x hx => by
      match x with
      | ⟨0, _⟩ => exact h0
      | ⟨1, _⟩ => exact absurd rfl hx
      | ⟨2, _⟩ => exact h2
      | ⟨3, _⟩ => exact h3)
    h1

end Cert.Joined

end
-- ==== Proof.CacheRegion.lean ====
/-
  The first region: the held rows are copied, block by block, into the front of a 4112-row array.

  The grid is 4 × 16.  At point (p, q) the region fetches block (p, q, 0, 0) — one batch entry, 256 rows, all heads,
  the full width — of each of the two held arrays, and its body stores each fetched block unchanged into the staging
  buffer of the matching output, which is written back to block (p, q, 0, 0) of a 4 × 4112 × 32 × 128 array.  So the
  element of an output block at coordinates (0, r, h, d) is the held array's element (p, 256 q + r, h, d), and sits
  in the output array at the same coordinates: what each point writes back is its block of the joined array,
  whatever the new rows are, since every block lies below row 4096.  The 64 blocks are exactly the indices below row
  4096; rows 4096 to 4111 are never written and keep what the region found there.  (The 4112 rows are not a multiple
  of 256, so a seventeenth block would overhang the array; the grid never reaches it, and at every point of the grid
  the write-back moves the whole 256-row block.)
-/
import proofs.«131961_j26972394619628_2_alg».proof.Proof.Gen.KernelIdeal.Frame
import proofs.«131961_j26972394619628_2_alg».proof.Proof.Joined
import Idealize.ShloMosaic.Lib.Pipeline.Value

set_option maxRecDepth 16384

noncomputable section

namespace Cert.KernelIdeal.Concat

open Cert.KernelIdeal Cert.KernelIdeal.Gen Cert.Joined
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The body's stores start at the staging buffer's origin. -/
theorem origin4 : (![0, 0, 0, 0] : Fin 4 → Nat) = fun _ => 0 := funext fun a => by fin_cases a <;> rfl

/-- The index maps over the grid: each input block moves with its output block; the output's block index is (p, q, 0, 0)
    with p ≤ 3 and q ≤ 15; no write-back is cut short. -/
theorem cache_index_facts : ∀ t : Fin cfg0.N,
    (∀ a : Fin 4, win0_0.index t a = win0_2.index t a) ∧ (∀ a : Fin 4, win0_1.index t a = win0_3.index t a)
    ∧ (∀ a : Fin 4, win0_3.index t a = win0_2.index t a)
    ∧ win0_2.index t (0 : Fin 4) ≤ 3 ∧ win0_2.index t (1 : Fin 4) ≤ 15
    ∧ win0_2.index t (2 : Fin 4) = 0 ∧ win0_2.index t (3 : Fin 4) = 0
    ∧ (∀ a : Fin 4, win0_2.xsize (grid0.coords t) a = S1x256x32x128.size a)
    ∧ (∀ a : Fin 4, win0_3.xsize (grid0.coords t) a = S1x256x32x128.size a) :=
  (by decide +kernel : ∀ t : Fin grid0.N, _)

/-- Every block (p, q, 0, 0) with p < 4 and q < 16 is some point's. -/
theorem cache_index_onto : ∀ (p : Fin 4) (q : Fin 16), ∃ t : Fin cfg0.N,
    win0_2.index t = ![p.val, q.val, 0, 0] ∧ win0_3.index t = ![p.val, q.val, 0, 0] :=
  (by decide +kernel : ∀ (p : Fin 4) (q : Fin 16), ∃ t : Fin grid0.N, _)

/-- What point `t` writes back through output window 2 is its block of the joined array whose held rows are the
    array window 0 reads (and whose new rows are anything). -/
theorem cache_flushed_2 (c : Dev nD) (t : Fin cfg0.N) (b : Fresh.Idx → Elt F .f32) :
    (dat0 V c).flushed 2 t = ((cfg0.win 2).blk t).view.read (Elt F) (joined (V c main_arg0) b) := by
  show (cfg0.win 2).cut (grid0.coords t) ((dat0 V c).after 2 t) = _
  rw [after0_2]
  unfold out0_2
  rw [View.canon_unit_zero origin4]
  simp only [View.ld_unit_zero (S := S1x256x32x128) origin4]
  obtain ⟨e02, e13, e32, -⟩ := cache_index_facts t
  funext j
  show V c main_arg0 (((cfg0.win 0).blk t).view.emb ((cfg0.win 2).xinj (grid0.coords t) j))
    = joined (V c main_arg0) b (((cfg0.win 2).blk t).view.emb j)
  refine (joined_held _ _ _ _ fun x => ?_).symm
  match x with
  | ⟨0, _⟩ => show win0_0.index t (0 : Fin 4) * 1 + 1 * (j 0).val = win0_2.index t (0 : Fin 4) * 1 + 1 * (j 0).val; rw [e02 0]
  | ⟨1, _⟩ => show win0_0.index t (1 : Fin 4) * 256 + 1 * (j 1).val = win0_2.index t (1 : Fin 4) * 256 + 1 * (j 1).val; rw [e02 1]
  | ⟨2, _⟩ => show win0_0.index t (2 : Fin 4) * 32 + 1 * (j 2).val = win0_2.index t (2 : Fin 4) * 32 + 1 * (j 2).val; rw [e02 2]
  | ⟨3, _⟩ => show win0_0.index t (3 : Fin 4) * 128 + 1 * (j 3).val = win0_2.index t (3 : Fin 4) * 128 + 1 * (j 3).val; rw [e02 3]

/-- An index of the output array is in point `t`'s block iff each coordinate is in the block's range on its axis. -/
theorem cache_mem_blk_2 (t : Fin cfg0.N) (i : S4x4112x32x128.Idx) :
    i ∈ ((cfg0.win 2).blk t).view.set ↔ ∀ a : Fin 4, win0_2.index t a * S1x256x32x128.size a ≤ (i a).val
      ∧ (i a).val < win0_2.index t a * S1x256x32x128.size a + win0_2.xsize (grid0.coords t) a := by
  show i ∈ ((View.whole main_call0_v0_0).slice (win0_2.rect t)).set ↔ _
  rw [View.set_slice_whole, Rect.mem_set_unit]
  exact Iff.rfl

/-- The indices some point's block covers are those below row 4096. -/
theorem cache_covered_2 (i : S4x4112x32x128.Idx) :
    (∃ t : Fin cfg0.N, (cfg0.win 2).flush t = true ∧ i ∈ ((cfg0.win 2).blk t).view.set) ↔ (i 1).val < 4096 := by
  constructor
  · rintro ⟨t, -, hi⟩
    rw [cache_mem_blk_2] at hi
    obtain ⟨-, -, e32, -, hq, -, -, hx2, hx3⟩ := cache_index_facts t
    have b1 := (hi 1).2
    rw [hx2 1] at b1
    have b1' : (i 1).val < win0_2.index t (1 : Fin 4) * 256 + 256 := b1
    omega
  · intro h
    have hi0 : (i 0).val < 4 := (i 0).isLt
    have hi2 : (i 2).val < 32 := (i 2).isLt
    have hi3 : (i 3).val < 128 := (i 3).isLt
    obtain ⟨t, ht2, ht3⟩ := cache_index_onto ⟨(i 0).val, hi0⟩ ⟨(i 1).val / 256, by omega⟩
    obtain ⟨-, -, -, -, -, -, -, hx2, hx3⟩ := cache_index_facts t
    refine ⟨t, flush0_2 t, ?_⟩
    rw [cache_mem_blk_2]
    intro a
    rw [hx2 a, ht2]
    match a with
    | ⟨0, _⟩ => show (i 0).val * 1 ≤ (i 0).val ∧ (i 0).val < (i 0).val * 1 + 1; omega
    | ⟨1, _⟩ => show (i 1).val / 256 * 256 ≤ (i 1).val ∧ (i 1).val < (i 1).val / 256 * 256 + 256; omega
    | ⟨2, _⟩ => show 0 * 32 ≤ (i 2).val ∧ (i 2).val < 0 * 32 + 32; omega
    | ⟨3, _⟩ => show 0 * 128 ≤ (i 3).val ∧ (i 3).val < 0 * 128 + 128; omega

/-- The output array after the region: the joined array below row 4096, what the region found from there on. -/
theorem cache_final_2 (c : Dev nD) (b : Fresh.Idx → Elt F .f32) (i : S4x4112x32x128.Idx) :
    (dat0 V c).arrAt 2 cfg0.N i = if (i 1).val < 4096 then joined (V c main_arg0) b i else V c main_call0_v0_0 i := by
  rw [(dat0 V c).arrAt_eq_piecewise 2 (joined (V c main_arg0) b) (fun t _ => cache_flushed_2 V c t b) i, A_eq0]
  exact if_congr (cache_covered_2 i) rfl rfl

/-- What point `t` writes back through output window 3 is its block of the joined array whose held rows are the
    array window 1 reads (and whose new rows are anything). -/
theorem cache_flushed_3 (c : Dev nD) (t : Fin cfg0.N) (b : Fresh.Idx → Elt F .f32) :
    (dat0 V c).flushed 3 t = ((cfg0.win 3).blk t).view.read (Elt F) (joined (V c main_arg1) b) := by
  show (cfg0.win 3).cut (grid0.coords t) ((dat0 V c).after 3 t) = _
  rw [after0_3]
  unfold out0_3
  rw [View.canon_unit_zero origin4]
  simp only [View.ld_unit_zero (S := S1x256x32x128) origin4]
  obtain ⟨e02, e13, e32, -⟩ := cache_index_facts t
  funext j
  show V c main_arg1 (((cfg0.win 1).blk t).view.emb ((cfg0.win 3).xinj (grid0.coords t) j))
    = joined (V c main_arg1) b (((cfg0.win 3).blk t).view.emb j)
  refine (joined_held _ _ _ _ fun x => ?_).symm
  match x with
  | ⟨0, _⟩ => show win0_1.index t (0 : Fin 4) * 1 + 1 * (j 0).val = win0_3.index t (0 : Fin 4) * 1 + 1 * (j 0).val; rw [e13 0]
  | ⟨1, _⟩ => show win0_1.index t (1 : Fin 4) * 256 + 1 * (j 1).val = win0_3.index t (1 : Fin 4) * 256 + 1 * (j 1).val; rw [e13 1]
  | ⟨2, _⟩ => show win0_1.index t (2 : Fin 4) * 32 + 1 * (j 2).val = win0_3.index t (2 : Fin 4) * 32 + 1 * (j 2).val; rw [e13 2]
  | ⟨3, _⟩ => show win0_1.index t (3 : Fin 4) * 128 + 1 * (j 3).val = win0_3.index t (3 : Fin 4) * 128 + 1 * (j 3).val; rw [e13 3]

/-- An index of the output array is in point `t`'s block iff each coordinate is in the block's range on its axis. -/
theorem cache_mem_blk_3 (t : Fin cfg0.N) (i : S4x4112x32x128.Idx) :
    i ∈ ((cfg0.win 3).blk t).view.set ↔ ∀ a : Fin 4, win0_3.index t a * S1x256x32x128.size a ≤ (i a).val
      ∧ (i a).val < win0_3.index t a * S1x256x32x128.size a + win0_3.xsize (grid0.coords t) a := by
  show i ∈ ((View.whole main_call0_v0_1).slice (win0_3.rect t)).set ↔ _
  rw [View.set_slice_whole, Rect.mem_set_unit]
  exact Iff.rfl

/-- The indices some point's block covers are those below row 4096. -/
theorem cache_covered_3 (i : S4x4112x32x128.Idx) :
    (∃ t : Fin cfg0.N, (cfg0.win 3).flush t = true ∧ i ∈ ((cfg0.win 3).blk t).view.set) ↔ (i 1).val < 4096 := by
  constructor
  · rintro ⟨t, -, hi⟩
    rw [cache_mem_blk_3] at hi
    obtain ⟨-, -, e32, -, hq, -, -, hx2, hx3⟩ := cache_index_facts t
    have b1 := (hi 1).2
    rw [hx3 1, e32 1] at b1
    have b1' : (i 1).val < win0_2.index t (1 : Fin 4) * 256 + 256 := b1
    omega
  · intro h
    have hi0 : (i 0).val < 4 := (i 0).isLt
    have hi2 : (i 2).val < 32 := (i 2).isLt
    have hi3 : (i 3).val < 128 := (i 3).isLt
    obtain ⟨t, ht2, ht3⟩ := cache_index_onto ⟨(i 0).val, hi0⟩ ⟨(i 1).val / 256, by omega⟩
    obtain ⟨-, -, -, -, -, -, -, hx2, hx3⟩ := cache_index_facts t
    refine ⟨t, flush0_3 t, ?_⟩
    rw [cache_mem_blk_3]
    intro a
    rw [hx3 a, ht3]
    match a with
    | ⟨0, _⟩ => show (i 0).val * 1 ≤ (i 0).val ∧ (i 0).val < (i 0).val * 1 + 1; omega
    | ⟨1, _⟩ => show (i 1).val / 256 * 256 ≤ (i 1).val ∧ (i 1).val < (i 1).val / 256 * 256 + 256; omega
    | ⟨2, _⟩ => show 0 * 32 ≤ (i 2).val ∧ (i 2).val < 0 * 32 + 32; omega
    | ⟨3, _⟩ => show 0 * 128 ≤ (i 3).val ∧ (i 3).val < 0 * 128 + 128; omega

/-- The output array after the region: the joined array below row 4096, what the region found from there on. -/
theorem cache_final_3 (c : Dev nD) (b : Fresh.Idx → Elt F .f32) (i : S4x4112x32x128.Idx) :
    (dat0 V c).arrAt 3 cfg0.N i = if (i 1).val < 4096 then joined (V c main_arg1) b i else V c main_call0_v0_1 i := by
  rw [(dat0 V c).arrAt_eq_piecewise 3 (joined (V c main_arg1) b) (fun t _ => cache_flushed_3 V c t b) i, A_eq0]
  exact if_congr (cache_covered_3 i) rfl rfl

end Cert.KernelIdeal.Concat

end
-- ==== Proof.NewRegion.lean ====
/-
  The second region: the new rows are copied into rows 4096 to 4111 of the 4112-row array.

  The grid has one point.  The region fetches the whole of each of the two new arrays (4 × 16 × 32 × 128, block index
  (0, 0, 0, 0)), its body stores each fetched block unchanged into the staging buffer of the matching output, and that
  buffer is written back to block (0, 256, 0, 0) of a 4 × 4112 × 32 × 128 array: with blocks of 16 rows, block 256
  starts at row 4096.  So the element of the output block at coordinates (p, r, h, d) is the new array's element
  (p, r, h, d) and sits in the output array at (p, 4096 + r, h, d): what the point writes back is its block of the
  joined array, whatever the held rows are.  The block is exactly the indices from row 4096 on; the rows below keep
  what the region found there.
-/
import proofs.«131961_j26972394619628_2_alg».proof.Proof.Gen.KernelIdeal.Frame
import proofs.«131961_j26972394619628_2_alg».proof.Proof.Joined
import Idealize.ShloMosaic.Lib.Pipeline.Value

set_option maxRecDepth 16384

noncomputable section

namespace Cert.KernelIdeal.Concat

open Cert.KernelIdeal Cert.KernelIdeal.Gen Cert.Joined
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The body's accesses start at the staging buffers' origin. -/
theorem fresh_origin : (![0, 0, 0, 0] : Fin 4 → Nat) = fun _ => 0 := funext fun a => by fin_cases a <;> rfl

/-- The index maps at the grid's point: both inputs at block (0, 0, 0, 0), both outputs at block (0, 256, 0, 0). -/
theorem fresh_index_facts : ∀ t : Fin cfg1.N,
    (∀ a : Fin 4, win1_0.index t a = 0) ∧ (∀ a : Fin 4, win1_1.index t a = 0)
    ∧ win1_2.index t (0 : Fin 4) = 0 ∧ win1_2.index t (1 : Fin 4) = 256
    ∧ win1_2.index t (2 : Fin 4) = 0 ∧ win1_2.index t (3 : Fin 4) = 0
    ∧ win1_3.index t (0 : Fin 4) = 0 ∧ win1_3.index t (1 : Fin 4) = 256
    ∧ win1_3.index t (2 : Fin 4) = 0 ∧ win1_3.index t (3 : Fin 4) = 0 :=
  (by decide +kernel : ∀ t : Fin grid1.N, _)

/-- The body's one store into output window 2's staging buffer is the block it loaded from input window 0: read back, the
    buffer holds that block. -/
theorem fresh_out_2 (c : Dev nD) (i : grid1.Coords) (arg1 : Memref sig .tc .vmem S4x16x32x128 .f32) (harg1 : arg1.IsWhole)
    (arg2 : Memref sig .tc .vmem S4x16x32x128 .f32) (harg2 : arg2.IsWhole) (arg5 : Memref sig .tc .vmem S4x16x32x128 .f32) (harg5 : arg5.IsWhole)
    (arg6 : Memref sig .tc .vmem S4x16x32x128 .f32) (harg6 : arg6.IsWhole) (x0 : Vec F S4x16x32x128 .f32) (x1 : Vec F S4x16x32x128 .f32) :
    out1_A_2 c i arg1 harg1 arg2 harg2 arg5 harg5 arg6 harg6 x0 x1 = x0 := by
  unfold out1_A_2
  rw [View.read_writes_eq_canon _ _ _ (cover1_A_2 c i arg1 harg1 arg2 harg2 arg5 harg5 arg6 harg6 x0 x1)]
  unfold kernelRun1_A
  dsimp only
  rw [View.canon_unit_zero fresh_origin]
  simp only [View.readAt_eq_ld, harg1.read_unread, harg2.read_unread, View.ld_unit_zero (S := S4x16x32x128) fresh_origin]

/-- What the point writes back through output window 2 is its block of the joined array whose new rows are the array
    window 0 reads (and whose held rows are anything). -/
theorem fresh_flushed_2 (c : Dev nD) (t : Fin cfg1.N) (a : Held.Idx → Elt F .f32) :
    (dat1 V c).flushed 2 t = ((cfg1.win 2).blk t).view.read (Elt F) (joined a (V c main_arg2)) := by
  show (cfg1.win 2).cut (grid1.coords t) ((dat1 V c).after 2 t) = _
  rw [after1_2]
  unfold outsAt1
  dsimp only
  rw [fresh_out_2]
  obtain ⟨e0, e1, e20, e21, e22, e23, e30, e31, e32, e33⟩ := fresh_index_facts t
  funext j
  show V c main_arg2 (((cfg1.win 0).blk t).view.emb j) = joined a (V c main_arg2) (((cfg1.win 2).blk t).view.emb j)
  refine (joined_fresh _ _ _ _ ?_ ?_ ?_ ?_).symm
  · show win1_0.index t (0 : Fin 4) * 4 + 1 * (j 0).val = win1_2.index t (0 : Fin 4) * 4 + 1 * (j 0).val
    rw [e0 0, e20]
  · show win1_0.index t (1 : Fin 4) * 16 + 1 * (j 1).val + 4096 = win1_2.index t (1 : Fin 4) * 16 + 1 * (j 1).val
    rw [e0 1, e21]; omega
  · show win1_0.index t (2 : Fin 4) * 32 + 1 * (j 2).val = win1_2.index t (2 : Fin 4) * 32 + 1 * (j 2).val
    rw [e0 2, e22]
  · show win1_0.index t (3 : Fin 4) * 128 + 1 * (j 3).val = win1_2.index t (3 : Fin 4) * 128 + 1 * (j 3).val
    rw [e0 3, e23]

/-- An index of the output array is in the point's block iff each coordinate is in the block's range on its axis. -/
theorem fresh_mem_blk_2 (t : Fin cfg1.N) (i : S4x4112x32x128.Idx) :
    i ∈ ((cfg1.win 2).blk t).view.set ↔ ∀ a : Fin 4, win1_2.index t a * S4x16x32x128.size a ≤ (i a).val
      ∧ (i a).val < win1_2.index t a * S4x16x32x128.size a + S4x16x32x128.size a := by
  show i ∈ ((View.whole main_v0_0).slice (win1_2.rect t)).set ↔ _
  rw [View.set_slice_whole, Rect.mem_set_unit]
  exact Iff.rfl

/-- The indices the point's block covers are those from row 4096 on. -/
theorem fresh_covered_2 (i : S4x4112x32x128.Idx) :
    (∃ t : Fin cfg1.N, (cfg1.win 2).flush t = true ∧ i ∈ ((cfg1.win 2).blk t).view.set) ↔ 4096 ≤ (i 1).val := by
  constructor
  · rintro ⟨t, -, hi⟩
    rw [fresh_mem_blk_2] at hi
    obtain ⟨e0, e1, e20, e21, e22, e23, e30, e31, e32, e33⟩ := fresh_index_facts t
    have b1 : win1_2.index t (1 : Fin 4) * 16 ≤ (i 1).val := (hi 1).1
    rw [e21] at b1
    omega
  · intro h
    have hi0 : (i 0).val < 4 := (i 0).isLt
    have hi1 : (i 1).val < 4112 := (i 1).isLt
    have hi2 : (i 2).val < 32 := (i 2).isLt
    have hi3 : (i 3).val < 128 := (i 3).isLt
    obtain ⟨e0, e1, e20, e21, e22, e23, e30, e31, e32, e33⟩ := fresh_index_facts t1_0
    refine ⟨t1_0, flush1_2 t1_0, ?_⟩
    rw [fresh_mem_blk_2]
    intro a
    match a with
    | ⟨0, _⟩ =>
      show win1_2.index t1_0 (0 : Fin 4) * 4 ≤ (i 0).val ∧ (i 0).val < win1_2.index t1_0 (0 : Fin 4) * 4 + 4
      rw [e20]; omega
    | ⟨1, _⟩ =>
      show win1_2.index t1_0 (1 : Fin 4) * 16 ≤ (i 1).val ∧ (i 1).val < win1_2.index t1_0 (1 : Fin 4) * 16 + 16
      rw [e21]; omega
    | ⟨2, _⟩ =>
      show win1_2.index t1_0 (2 : Fin 4) * 32 ≤ (i 2).val ∧ (i 2).val < win1_2.index t1_0 (2 : Fin 4) * 32 + 32
      rw [e22]; omega
    | ⟨3, _⟩ =>
      show win1_2.index t1_0 (3 : Fin 4) * 128 ≤ (i 3).val ∧ (i 3).val < win1_2.index t1_0 (3 : Fin 4) * 128 + 128
      rw [e23]; omega

/-- The output array after the region: the joined array from row 4096 on, what the region found below. -/
theorem fresh_final_2 (c : Dev nD) (a : Held.Idx → Elt F .f32) (i : S4x4112x32x128.Idx) :
    (dat1 V c).arrAt 2 cfg1.N i = if 4096 ≤ (i 1).val then joined a (V c main_arg2) i else V c main_v0_0 i := by
  rw [(dat1 V c).arrAt_eq_piecewise 2 (joined a (V c main_arg2)) (fun t _ => fresh_flushed_2 V c t a) i, A_eq1]
  exact if_congr (fresh_covered_2 i) rfl rfl

/-- The body's one store into output window 3's staging buffer is the block it loaded from input window 1: read back, the
    buffer holds that block. -/
theorem fresh_out_3 (c : Dev nD) (i : grid1.Coords) (arg1 : Memref sig .tc .vmem S4x16x32x128 .f32) (harg1 : arg1.IsWhole)
    (arg2 : Memref sig .tc .vmem S4x16x32x128 .f32) (harg2 : arg2.IsWhole) (arg5 : Memref sig .tc .vmem S4x16x32x128 .f32) (harg5 : arg5.IsWhole)
    (arg6 : Memref sig .tc .vmem S4x16x32x128 .f32) (harg6 : arg6.IsWhole) (x0 : Vec F S4x16x32x128 .f32) (x1 : Vec F S4x16x32x128 .f32) :
    out1_A_3 c i arg1 harg1 arg2 harg2 arg5 harg5 arg6 harg6 x0 x1 = x1 := by
  unfold out1_A_3
  rw [View.read_writes_eq_canon _ _ _ (cover1_A_3 c i arg1 harg1 arg2 harg2 arg5 harg5 arg6 harg6 x0 x1)]
  unfold kernelRun1_A
  dsimp only
  rw [View.canon_unit_zero fresh_origin]
  simp only [View.readAt_eq_ld, harg1.read_unread, harg2.read_unread, View.ld_unit_zero (S := S4x16x32x128) fresh_origin]

/-- What the point writes back through output window 3 is its block of the joined array whose new rows are the array
    window 1 reads (and whose held rows are anything). -/
theorem fresh_flushed_3 (c : Dev nD) (t : Fin cfg1.N) (a : Held.Idx → Elt F .f32) :
    (dat1 V c).flushed 3 t = ((cfg1.win 3).blk t).view.read (Elt F) (joined a (V c main_arg3)) := by
  show (cfg1.win 3).cut (grid1.coords t) ((dat1 V c).after 3 t) = _
  rw [after1_3]
  unfold outsAt1
  dsimp only
  rw [fresh_out_3]
  obtain ⟨e0, e1, e20, e21, e22, e23, e30, e31, e32, e33⟩ := fresh_index_facts t
  funext j
  show V c main_arg3 (((cfg1.win 1).blk t).view.emb j) = joined a (V c main_arg3) (((cfg1.win 3).blk t).view.emb j)
  refine (joined_fresh _ _ _ _ ?_ ?_ ?_ ?_).symm
  · show win1_1.index t (0 : Fin 4) * 4 + 1 * (j 0).val = win1_3.index t (0 : Fin 4) * 4 + 1 * (j 0).val
    rw [e1 0, e30]
  · show win1_1.index t (1 : Fin 4) * 16 + 1 * (j 1).val + 4096 = win1_3.index t (1 : Fin 4) * 16 + 1 * (j 1).val
    rw [e1 1, e31]; omega
  · show win1_1.index t (2 : Fin 4) * 32 + 1 * (j 2).val = win1_3.index t (2 : Fin 4) * 32 + 1 * (j 2).val
    rw [e1 2, e32]
  · show win1_1.index t (3 : Fin 4) * 128 + 1 * (j 3).val = win1_3.index t (3 : Fin 4) * 128 + 1 * (j 3).val
    rw [e1 3, e33]

/-- An index of the output array is in the point's block iff each coordinate is in the block's range on its axis. -/
theorem fresh_mem_blk_3 (t : Fin cfg1.N) (i : S4x4112x32x128.Idx) :
    i ∈ ((cfg1.win 3).blk t).view.set ↔ ∀ a : Fin 4, win1_3.index t a * S4x16x32x128.size a ≤ (i a).val
      ∧ (i a).val < win1_3.index t a * S4x16x32x128.size a + S4x16x32x128.size a := by
  show i ∈ ((View.whole main_v0_1).slice (win1_3.rect t)).set ↔ _
  rw [View.set_slice_whole, Rect.mem_set_unit]
  exact Iff.rfl

/-- The indices the point's block covers are those from row 4096 on. -/
theorem fresh_covered_3 (i : S4x4112x32x128.Idx) :
    (∃ t : Fin cfg1.N, (cfg1.win 3).flush t = true ∧ i ∈ ((cfg1.win 3).blk t).view.set) ↔ 4096 ≤ (i 1).val := by
  constructor
  · rintro ⟨t, -, hi⟩
    rw [fresh_mem_blk_3] at hi
    obtain ⟨e0, e1, e20, e21, e22, e23, e30, e31, e32, e33⟩ := fresh_index_facts t
    have b1 : win1_3.index t (1 : Fin 4) * 16 ≤ (i 1).val := (hi 1).1
    rw [e31] at b1
    omega
  · intro h
    have hi0 : (i 0).val < 4 := (i 0).isLt
    have hi1 : (i 1).val < 4112 := (i 1).isLt
    have hi2 : (i 2).val < 32 := (i 2).isLt
    have hi3 : (i 3).val < 128 := (i 3).isLt
    obtain ⟨e0, e1, e20, e21, e22, e23, e30, e31, e32, e33⟩ := fresh_index_facts t1_0
    refine ⟨t1_0, flush1_3 t1_0, ?_⟩
    rw [fresh_mem_blk_3]
    intro a
    match a with
    | ⟨0, _⟩ =>
      show win1_3.index t1_0 (0 : Fin 4) * 4 ≤ (i 0).val ∧ (i 0).val < win1_3.index t1_0 (0 : Fin 4) * 4 + 4
      rw [e30]; omega
    | ⟨1, _⟩ =>
      show win1_3.index t1_0 (1 : Fin 4) * 16 ≤ (i 1).val ∧ (i 1).val < win1_3.index t1_0 (1 : Fin 4) * 16 + 16
      rw [e31]; omega
    | ⟨2, _⟩ =>
      show win1_3.index t1_0 (2 : Fin 4) * 32 ≤ (i 2).val ∧ (i 2).val < win1_3.index t1_0 (2 : Fin 4) * 32 + 32
      rw [e32]; omega
    | ⟨3, _⟩ =>
      show win1_3.index t1_0 (3 : Fin 4) * 128 ≤ (i 3).val ∧ (i 3).val < win1_3.index t1_0 (3 : Fin 4) * 128 + 128
      rw [e33]; omega

/-- The output array after the region: the joined array from row 4096 on, what the region found below. -/
theorem fresh_final_3 (c : Dev nD) (a : Held.Idx → Elt F .f32) (i : S4x4112x32x128.Idx) :
    (dat1 V c).arrAt 3 cfg1.N i = if 4096 ≤ (i 1).val then joined a (V c main_arg3) i else V c main_v0_1 i := by
  rw [(dat1 V c).arrAt_eq_piecewise 3 (joined a (V c main_arg3)) (fun t _ => fresh_flushed_3 V c t a) i, A_eq1]
  exact if_congr (fresh_covered_3 i) rfl rfl

end Cert.KernelIdeal.Concat

end
-- ==== Proof.Results.lean ====
/-
  The two result arrays after the whole run are the joined arrays.

  Follow a result buffer back through the chain of boundaries.  After the second region it holds, from row 4096 on,
  the joined array (the new rows, read from an argument buffer that nothing before the region wrote), and below row
  4096 what the region found in it.  What the region found is the host copy of the first region's output array,
  which below row 4096 is again the joined array (the held rows, read from an argument buffer at launch).  The two
  ranges of rows are complementary, so every entry is the joined array's: the rows 4096 to 4111 of the first region's
  output, which that region never wrote, are never read.
-/
import proofs.«131961_j26972394619628_2_alg».proof.Proof.CacheRegion
import proofs.«131961_j26972394619628_2_alg».proof.Proof.NewRegion
import Idealize.ShloMosaic.Lib.StableHlo.Run

set_option maxRecDepth 16384

noncomputable section

namespace Cert.KernelIdeal.Concat

open Cert.KernelIdeal Cert.KernelIdeal.Gen Cert.Joined
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- When the second region is entered the first new array is as launched: the second region's first input window reads it
    without writing it, so its contents at the region's entry are its contents at the end, which are the launch's. -/
theorem entry_new0 (c : Dev nD) : V2 m ρ c main_arg2 = m ((c.tc : Thread nD τ).loc main_arg2) :=
  ((W3_arr m ρ c 0).trans (((dat1 (V2 m ρ) c).arrAt_in 0 rfl _).trans (A_eq1 (V2 m ρ) c 0))).symm.trans (W3_main_arg2 m ρ c)

/-- The second new array likewise. -/
theorem entry_new1 (c : Dev nD) : V2 m ρ c main_arg3 = m ((c.tc : Thread nD τ).loc main_arg3) :=
  ((W3_arr m ρ c 1).trans (((dat1 (V2 m ρ) c).arrAt_in 1 rfl _).trans (A_eq1 (V2 m ρ) c 1))).symm.trans (W3_main_arg3 m ρ c)

/-- When the second region is entered the first result buffer holds the host's copy of the first region's first output array. -/
theorem entry_result0 (c : Dev nD) : V2 m ρ c main_v0_0 = (dat0 (V0 m ρ) c).arrAt 2 cfg0.N := by
  refine Eq.trans ?_ (W1_arr m ρ c 2)
  show StableHlo.after hostOps1 (W1 m ρ c) (Proc.devRef .tc main_v0_0) = _
  after_results
  rfl

/-- The second result buffer likewise. -/
theorem entry_result1 (c : Dev nD) : V2 m ρ c main_v0_1 = (dat0 (V0 m ρ) c).arrAt 3 cfg0.N := by
  refine Eq.trans ?_ (W1_arr m ρ c 3)
  show StableHlo.after hostOps1 (W1 m ρ c) (Proc.devRef .tc main_v0_1) = _
  after_results
  rfl

/-- After the run the first result buffer holds the first held array followed by the first new array. -/
theorem result0 (c : Dev nD) : W3 m ρ c (Proc.devRef .tc main_v0_0)
    = joined (m ((c.tc : Thread nD τ).loc main_arg0)) (m ((c.tc : Thread nD τ).loc main_arg2)) := by
  refine (W3_arr m ρ c 2).trans (funext fun i => ?_)
  rw [fresh_final_2 (V2 m ρ) c (m ((c.tc : Thread nD τ).loc main_arg0)) i, entry_new0]
  split
  · rfl
  · next h =>
    rw [entry_result0, cache_final_2 (V0 m ρ) c (m ((c.tc : Thread nD τ).loc main_arg2)) i, if_pos (by omega)]

/-- After the run the second result buffer holds the second held array followed by the second new array. -/
theorem result1 (c : Dev nD) : W3 m ρ c (Proc.devRef .tc main_v0_1)
    = joined (m ((c.tc : Thread nD τ).loc main_arg1)) (m ((c.tc : Thread nD τ).loc main_arg3)) := by
  refine (W3_arr m ρ c 3).trans (funext fun i => ?_)
  rw [fresh_final_3 (V2 m ρ) c (m ((c.tc : Thread nD τ).loc main_arg1)) i, entry_new1]
  split
  · rfl
  · next h =>
    rw [entry_result1, cache_final_3 (V0 m ρ) c (m ((c.tc : Thread nD τ).loc main_arg3)) i, if_pos (by omega)]

end Cert.KernelIdeal.Concat

end
-- ==== Proof.lean ====
/-
  Appending new key and value rows to a cache: the kernel's two results equal the reference's.

  The reference joins each held array (4 × 4096 × 32 × 128) with the matching new array (4 × 16 × 32 × 128) along the
  sequence axis.  The kernel reaches the same arrays by two copies: a first region copies the held rows, in 64 blocks
  of 256 rows, into the front of a fresh 4112-row array; the host copies that array into the result buffer; a second
  region copies the new rows into rows 4096 to 4111 of the result buffer.  No arithmetic is done on any entry, so the
  equality holds entry by entry for arbitrary extended reals and the finiteness of the inputs is not used: an entry
  below row 4096 is the held array's entry at the same coordinates on both sides, an entry from row 4096 on is the new
  array's entry 4096 rows up on both sides (Results.lean for the kernel; the reference's run states the joined array
  directly).  The idealized kernel is the kernel's own text read over the extended reals (no rewrite was applied), so
  there is nothing to preserve; each program's frame is its run with the results forgotten.
-/
import proofs.«131961_j26972394619628_2_alg».proof.Defs
import proofs.«131961_j26972394619628_2_alg».proof.Proof.Gen.Kernel.Frame
import proofs.«131961_j26972394619628_2_alg».proof.Proof.Gen.KernelIdeal.Frame
import proofs.«131961_j26972394619628_2_alg».proof.Proof.Gen.ReferenceIdeal.Run
import proofs.«131961_j26972394619628_2_alg».proof.Proof.Gen.Pre_finite_inputs
import proofs.«131961_j26972394619628_2_alg».proof.Proof.KernelRun
import proofs.«131961_j26972394619628_2_alg».proof.Proof.Results

noncomputable section

namespace Cert.Proof

open Idealize.ShloMosaic Idealize.ShloMosaic.TcCoe Idealize.SL.Sem Cert.Joined

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

/-- Both programs end with each result at the held array followed by the new array. -/
theorem algebraic : Cert.algebraic_KernelIdeal_ReferenceIdeal := by
  intro m ρ m' ρ' _ hagree
  refine ⟨fun c => joined (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => joined (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Concat.result0 m ρ c),
        (h c).2.1.trans (Cert.KernelIdeal.Concat.result1 m ρ c), (h c).2.2⟩)
      (Cert.KernelIdeal.Concat.run_results (F := Ideal) m ρ)
  · refine (θ_run Cert.ReferenceIdeal.defs _ _).mono (fun r h c => ⟨?_, ?_, (h c).2.2⟩)
      (Cert.ReferenceIdeal.Value.run (F := Ideal) m' ρ')
    · rw [(h c).1, (hagree c).1, (hagree c).2.2.1]; rfl
    · rw [(h c).2.1, (hagree c).2.1, (hagree c).2.2.2]; rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
